-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8192x64 .f32) (main_arg1 : FVec F S8192x8192 .f32) (main_arg2 : FVec F S64x128 .f32) (main_arg3 : FVec F S128 .f32) (main_arg4 : FVec F S128x128 .f32) (main_arg5 : FVec F S128 .f32) (main_arg6 : FVec F S128 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S8192x64 : Shape := ⟨2, ![8192, 64]⟩
abbrev S8192x8192 : Shape := ⟨2, ![8192, 8192]⟩
abbrev S64x128 : Shape := ⟨2, ![64, 128]⟩
abbrev S128 : Shape := ⟨1, ![128]⟩
abbrev S128x128 : Shape := ⟨2, ![128, 128]⟩
abbrev S8192x128 : Shape := ⟨2, ![8192, 128]⟩
abbrev S1x128 : Shape := ⟨2, ![1, 128]⟩
abbrev S_ : Shape := ⟨0, ![]⟩
abbrev S2x1x128 : Shape := ⟨3, ![2, 1, 128]⟩
abbrev S4096x256 : Shape := ⟨2, ![4096, 256]⟩
abbrev S256x128 : Shape := ⟨2, ![256, 128]⟩
abbrev S1x1x128 : Shape := ⟨3, ![1, 1, 128]⟩
abbrev S256 : Shape := ⟨1, ![256]⟩
abbrev S1x256 : Shape := ⟨2, ![1, 256]⟩
abbrev S2x128 : Shape := ⟨2, ![2, 128]⟩

abbrev nBuf : Space → Nat
  | .hbm => 43
  | .vmem => 7
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S8192x128, .f32⟩
  | .hbm, ⟨8, _⟩ => ⟨S1x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .i1⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S1x128, .f32⟩
  | .hbm, ⟨27, _⟩ => ⟨S8192x128, .f32⟩
  | .hbm, ⟨28, _⟩ => ⟨S8192x128, .f32⟩
  | .hbm, ⟨29, _⟩ => ⟨S2x1x128, .f32⟩
  | .hbm, ⟨30, _⟩ => ⟨S2x128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S256x128, .f32⟩
  | .local _ .vmem, ⟨3, _⟩ => ⟨S256x128, .f32⟩
  | .local _ .vmem, ⟨4, _⟩ => ⟨S1x1x128, .f32⟩
  | .local _ .vmem, ⟨5, _⟩ => ⟨S1x1x128, .f32⟩
  | .local _ .vmem, ⟨6, _⟩ => ⟨S1x128, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_cst_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_call1_v0 : Ref sig .tc := ⟨.hbm, 37, rfl⟩
abbrev main_call1_cst : Ref sig .tc := ⟨.hbm, 38, rfl⟩
abbrev main_call1_v1 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v32 : BitVec 1 := Scalar.cmpi .eq arg1 c31_i32
  let v33 : BitVec 32 := Scalar.extui v32
  let c0_i32_16 : BitVec 32 := 0#32
  let v34 : BitVec 1 := Scalar.cmpi .ne v33 c0_i32_16
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x256_S4096x256_0_0 : ∀ a, (![0, 0] : Fin 2 → Nat) a + S4096x256.size a ≤ S4096x256.size a
  h_S4096x256 : 0 < S4096x256.numel
  reduces_S4096x256_S256 : S4096x256.Reduces [0] S256
  shapeCasts_S256_S1x256 : S256.ShapeCasts S1x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S2x1x128_S2x128 : S2x1x128.ShapeCasts S2x128
  reducesTo_S2x128_S128_d0 : S2x128.ReducesTo [0] S128
  h_S_ : 0 < S_.numel
  reducesTo_S8192x128_S128_d0 : S8192x128.ReducesTo [0] S128
  reducesTo_S128_S_d0 : S128.ReducesTo [0] S_
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  dot_S1x256_S256x128_S1x128_1_0_0_1_n_n_wf : DotDims.WF S1x256 S256x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S8192x8192.size a
  hwx0_0 : ∀ i : grid0.Coords, EltTy.bits .f32 = 32 ∨ (Rect.block (s := S8192x8192) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S8192x128.size a
  hwx0_1 : ∀ i : grid0.Coords, EltTy.bits .f32 = 32 ∨ (Rect.block (s := S8192x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf

abbrev win0_0 : Pipeline.Window sig grid0 :=
  Pipeline.Window.ofSpec (Memref.whole main_arg1) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S64x128 : Shape := ⟨2, ![64, 128]⟩
abbrev S128 : Shape := ⟨1, ![128]⟩
abbrev S128x128 : Shape := ⟨2, ![128, 128]⟩
abbrev S8192x128 : Shape := ⟨2, ![8192, 128]⟩
abbrev S1x128 : Shape := ⟨2, ![1, 128]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S8192x128, .f32⟩
  | .hbm, ⟨8, _⟩ => ⟨S1x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .i1⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S8192x8192, .f32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x128, .f32⟩
  | .hbm, ⟨49, _⟩ => ⟨S1x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_3 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_4 : Ref sig .tc := ⟨.hbm, 44, rfl⟩
abbrev main_call2_v0 : Ref sig .tc := ⟨.hbm, 45, rfl⟩
abbrev main_call2_v1 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_5 : Ref sig .tc := ⟨.hbm, 54, rfl⟩
abbrev main_v24 : Ref sig .tc := ⟨.hbm, 55, rfl⟩
abbrev main_v25 : Ref sig .tc := ⟨.hbm, 56, rfl⟩
abbrev main_call3_v0 : Ref sig .tc := ⟨.hbm, 57, rfl⟩
abbrev main_call3_cst : Ref sig .tc := ⟨.hbm, 58, rfl⟩
abbrev main_call3_v1 : Ref sig .tc := ⟨.hbm, 59, rfl⟩
abbrev main_v26 : Ref sig .tc := ⟨.hbm, 60, rfl⟩
abbrev main_cst_6 : Ref sig .tc := ⟨.hbm, 61, rfl⟩
abbrev main_v27 : Ref sig .tc := ⟨.hbm, 62, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S_S8192x8192 : S_.BroadcastsInDim S8192x8192 (![] : Fin 0 → Fin S8192x8192.rank)
  reducesTo_S8192x128_S128_d0 : S8192x128.ReducesTo [0] S128
  h_S_ : 0 < S_.numel
  reducesTo_S128_S_d0 : S128.ReducesTo [0] S_
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Pieces.lean ====
/-
  What one grid point leaves behind, as values.  The body keeps a [1,128] accumulator in a scratch buffer across the
  column-tile axis of the grid.  At a point it (re)sets the accumulator to zero when the column tile is the first one,
  then stores  acc + (column sums of the masked sensitivity block) · (message block)  into it, and when the column tile
  is the last one copies the accumulator into the output block.  The three control cases (first tile / middle tile /
  last tile) therefore leave, in the scratch, the SAME function `k0_pay3` of the two input blocks and of the
  accumulator found (the zero block in the first case), and the last case leaves in the output block the reshaped
  accumulator `k0_pay1`.  Each lemma reads the covering store of a case back through the whole staging buffers.
-/
import proofs.«163750_j32134945309414_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle column tile: the scratch ends at the accumulator found plus this tile's contribution. -/
theorem scr_B (c : Dev nD) (i : grid0.Coords) (a2 : Memref sig .tc .vmem S4096x256 .f32) (h2 : a2.IsWhole) (a3 : Memref sig .tc .vmem S256x128 .f32) (h3 : a3.IsWhole) (a4 : Memref sig .tc .vmem S1x1x128 .f32) (h4 : a4.IsWhole) (a5 : Memref sig .tc .vmem S1x128 .f32) (h5 : a5.IsWhole) (hc0 : ¬cond0_0 i) (hc1 : ¬cond0_1 i)
    (x0 : Vec F S4096x256 .f32) (x1 : Vec F S256x128 .f32) (xs : Vec F S1x128 .f32) :
    sout0_B_0 c i a2 h2 a3 h3 a4 h4 a5 h5 hc0 hc1 x0 x1 xs = k0_pay3 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz2]
  simp only [View.readAt_eq_ld, h2.read_unread, h3.read_unread, h5.read_unread, View.ld_unit_zero (S := S4096x256) hz2, View.ld_unit_zero (S := S256x128) hz2, View.ld_unit_zero (S := S1x128) hz2]

/-- The first column tile: the accumulator is first set to the zero block `k0_pay2`, which the accumulation then
    reads back, so the scratch ends at zero plus this tile's contribution. -/
theorem scr_A (c : Dev nD) (i : grid0.Coords) (a2 : Memref sig .tc .vmem S4096x256 .f32) (h2 : a2.IsWhole) (a3 : Memref sig .tc .vmem S256x128 .f32) (h3 : a3.IsWhole) (a4 : Memref sig .tc .vmem S1x1x128 .f32) (h4 : a4.IsWhole) (a5 : Memref sig .tc .vmem S1x128 .f32) (h5 : a5.IsWhole) (hc0 : cond0_0 i) (hc1 : ¬cond0_1 i)
    (x0 : Vec F S4096x256 .f32) (x1 : Vec F S256x128 .f32) :
    sout0_A_0 c i a2 h2 a3 h3 a4 h4 a5 h5 hc0 hc1 x0 x1 = k0_pay3 x0 x1 k0_pay2 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x128) hz2, View.readCov_unit_zero (S := S1x128) _ hz2]
  simp only [View.readAt_eq_ld, h2.read_unread, h3.read_unread, h5.read_unread, View.ld_unit_zero (S := S4096x256) hz2, View.ld_unit_zero (S := S256x128) hz2, View.ld_unit_zero (S := S1x128) hz2]

/-- The last column tile: the scratch as in a middle tile, -/
theorem scr_C (c : Dev nD) (i : grid0.Coords) (a2 : Memref sig .tc .vmem S4096x256 .f32) (h2 : a2.IsWhole) (a3 : Memref sig .tc .vmem S256x128 .f32) (h3 : a3.IsWhole) (a4 : Memref sig .tc .vmem S1x1x128 .f32) (h4 : a4.IsWhole) (a5 : Memref sig .tc .vmem S1x128 .f32) (h5 : a5.IsWhole) (hc0 : ¬cond0_0 i) (hc1 : cond0_1 i)
    (x0 : Vec F S4096x256 .f32) (x1 : Vec F S256x128 .f32) (xs : Vec F S1x128 .f32) :
    sout0_C_0 c i a2 h2 a3 h3 a4 h4 a5 h5 hc0 hc1 x0 x1 xs = k0_pay3 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz2]
  simp only [View.readAt_eq_ld, h2.read_unread, h3.read_unread, h5.read_unread, View.ld_unit_zero (S := S4096x256) hz2, View.ld_unit_zero (S := S256x128) hz2, View.ld_unit_zero (S := S1x128) hz2]

/-- and the output block is that accumulator, read back from the scratch and reshaped to [1,1,128]. -/
theorem out_C (c : Dev nD) (i : grid0.Coords) (a2 : Memref sig .tc .vmem S4096x256 .f32) (h2 : a2.IsWhole) (a3 : Memref sig .tc .vmem S256x128 .f32) (h3 : a3.IsWhole) (a4 : Memref sig .tc .vmem S1x1x128 .f32) (h4 : a4.IsWhole) (a5 : Memref sig .tc .vmem S1x128 .f32) (h5 : a5.IsWhole) (hc0 : ¬cond0_0 i) (hc1 : cond0_1 i)
    (x0 : Vec F S4096x256 .f32) (x1 : Vec F S256x128 .f32) (xs : Vec F S1x128 .f32) :
    out0_C_2 c i a2 h2 a3 h3 a4 h4 a5 h5 hc0 hc1 x0 x1 xs = k0_pay1 (k0_pay3 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz3, View.readCov_unit_zero (S := S1x128) _ hz2]
  simp only [View.readAt_eq_ld, h2.read_unread, h3.read_unread, h5.read_unread, View.ld_unit_zero (S := S4096x256) hz2, View.ld_unit_zero (S := S256x128) hz2, View.ld_unit_zero (S := S1x128) hz2]

end Cert.KernelIdeal.Pieces
end
-- ==== Proof.Sens.lean ====
/-
  The masked sensitivity of one pairwise distance, as a function on the extended reals, and the one fact about it that
  the certificate's algebra needs: it is never negative (an exponential, or zero).  Non-negativity is what lets a sum
  of sensitivities be multiplied through term by term on the extended reals, where distributivity fails for sums that
  mix +∞ and -∞.
-/
import Idealize.ShloMosaic.PureOps.Ideal.Laws
import Idealize.ShloMosaic.Lib.ValueIdx

noncomputable section

open Idealize.ShloMosaic Idealize.ShloMosaic.ValueIdx

namespace Cert.Colsum

/-- Whether a distance lies under the cutoff 0.5, as the comparison's bit. -/
def gate (d : EReal) : BitVec 1 := Ideal.cmp .olt d (Ideal.ofBits .f32 0x3F000000#32)
/-- `1 / r - 1` of the guarded distance `r` (`d` under the cutoff, `1` otherwise). -/
def dev (d : EReal) : EReal :=
  Ideal.div (Ideal.ofBits .f32 0x3F800000#32) (Scalar.select (gate d) d (Ideal.ofBits .f32 0x3F800000#32)) - Ideal.ofBits .f32 0x3F800000#32
/-- The masked sensitivity of one distance: `exp (-(1/r - 1)² / 0.5)` under the cutoff, `0` otherwise. -/
def sens (d : EReal) : EReal :=
  Scalar.select (gate d) (Ideal.exp (Ideal.div (Ideal.ofBits .f32 0x00000000#32 - dev d * dev d) (Ideal.ofBits .f32 0x3F000000#32))) (Ideal.ofBits .f32 0x00000000#32)

/-- The exponential on the extended reals is never negative (`exp (-∞) = 0`, `exp (+∞) = +∞`). -/
theorem exp_nonneg (x : EReal) : 0 ≤ Ideal.exp x := by
  induction x using EReal.rec with
  | bot => exact le_of_eq Ideal.exp_bot.symm
  | coe r => exact (Ideal.exp_coe (r := r)).symm ▸ EReal.coe_nonneg.mpr (Real.exp_pos r).le
  | top => exact le_top

/-- So a sensitivity is never negative: it is an exponential under the cutoff and zero elsewhere. -/
theorem sens_nonneg (d : EReal) : 0 ≤ sens d := by
  unfold sens
  rcases BitVec.eq_zero_or_eq_one (gate d) with h | h
  · rw [h, select_zero, Ideal.ofBits_zero_f32]
  · rw [h, select_one]; exact exp_nonneg _

/-- Subtracting from the zero word is negation on the extended reals. -/
theorem zero_word_sub (x : EReal) : Ideal.ofBits .f32 0x00000000#32 - x = -x := by
  rw [Ideal.ofBits_zero_f32, sub_eq_add_neg, zero_add]

end Cert.Colsum
end
-- ==== Proof.Payload.lean ====
/-
  One grid point's arithmetic, entry by entry, on the extended reals.  The body's stored value `k0_pay3` of the distance
  block `x0` [4096,256], the message block `x1` [256,128] and the accumulator found `acc` [1,128] is, at lane `h`,
      acc h + ∑ j < 256, (∑ r < 4096, sens (x0 r j)) · x1 j h :
  the masked sensitivity is computed pointwise, summed down the rows (a lane reduction over axis 0), and the resulting
  row vector is multiplied into the message block by a [1,256] × [256,128] matrix product with a zero accumulator.
-/
import proofs.«163750_j32134945309414_2_alg».proof.Proof.Gen.KernelIdeal.Skeleton
import proofs.«163750_j32134945309414_2_alg».proof.Proof.Sens
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.Colsum

open Cert.KernelIdeal Cert.KernelIdeal.Gen

/-- A column sum of a [4096,256] block: the lane reduction over the row axis, read at column `j`. -/
theorem colsum_apply (v : FVec Ideal S4096x256 .f32) (j : Fin 256) :
    multiReduction .add [0] S256 v 0x00000000#32 reduces_S4096x256_S256 (.inl rfl) rfl (ix1 j) = ∑ r : Fin 4096, v (ix2 r j) := by
  refine (Ideal.multiReduction_add_single v 0x00000000#32 reduces_S4096x256_S256 (.inl rfl) rfl (ix1 j)).trans ?_
  refine Finset.sum_congr rfl fun r _ => congrArg v ?_
  funext c
  apply Fin.ext
  match c with
  | ⟨0, _⟩ => rfl
  | ⟨1, _⟩ => rfl

theorem lhs_0 (i : S1x128.Idx) (q : dot_S1x256_S256x128_S1x128_1_0_0_1_n_n.contr.Idx) : (dot_S1x256_S256x128_S1x128_1_0_0_1_n_n.lhsIdx i q 0).val = (i 0).val := by
  unfold DotDims.lhsIdx
  rw [dif_neg (show ¬(0 : Fin S1x256.rank) ∈ dot_S1x256_S256x128_S1x128_1_0_0_1_n_n.lhsBatch by decide), dif_pos (show (0 : Fin S1x256.rank) ∈ dot_S1x256_S256x128_S1x128_1_0_0_1_n_n.lhsNonContracting by decide)]
  rfl
theorem lhs_1 (i : S1x128.Idx) (q : dot_S1x256_S256x128_S1x128_1_0_0_1_n_n.contr.Idx) : (dot_S1x256_S256x128_S1x128_1_0_0_1_n_n.lhsIdx i q 1).val = (q ⟨0, by decide⟩).val :=
  dot_S1x256_S256x128_S1x128_1_0_0_1_n_n.lhsIdx_val_of_single rfl i q
theorem rhs_0 (i : S1x128.Idx) (q : dot_S1x256_S256x128_S1x128_1_0_0_1_n_n.contr.Idx) : (dot_S1x256_S256x128_S1x128_1_0_0_1_n_n.rhsIdx i q 0).val = (q ⟨0, by decide⟩).val :=
  dot_S1x256_S256x128_S1x128_1_0_0_1_n_n.rhsIdx_val_of_single rfl i q
theorem rhs_1 (i : S1x128.Idx) (q : dot_S1x256_S256x128_S1x128_1_0_0_1_n_n.contr.Idx) : (dot_S1x256_S256x128_S1x128_1_0_0_1_n_n.rhsIdx i q 1).val = (i 1).val := by
  unfold DotDims.rhsIdx
  rw [dif_neg (show ¬(1 : Fin S256x128.rank) ∈ dot_S1x256_S256x128_S1x128_1_0_0_1_n_n.rhsBatch by decide), dif_pos (show (1 : Fin S256x128.rank) ∈ dot_S1x256_S256x128_S1x128_1_0_0_1_n_n.rhsNonContracting by decide)]
  rfl

/-- The [1,256] × [256,128] product into a zero accumulator, at (u, h): the sum over the 256 contracted columns (the
    operands' rounding to bf16 is the identity on extended reals). -/
theorem mm_apply (l : FVec Ideal S1x256 .f32) (r : FVec Ideal S256x128 .f32) (u : Fin 1) (h : Fin 128) :
    matmul dot_S1x256_S256x128_S1x128_1_0_0_1_n_n none (truncf .bf16 l bitsLt_bf16_f32) (truncf .bf16 r bitsLt_bf16_f32) (constant S1x128 .f32 0x00000000#32) (ix2 u h)
      = ∑ j : Fin 256, l (ix2 u j) * r (ix2 j h) := by
  simp only [matmul]
  rw [Ideal.matmul_constant_zero_apply, ← Equiv.sum_comp (contrEquiv1 dot_S1x256_S256x128_S1x128_1_0_0_1_n_n 256 rfl rfl).symm]
  refine Finset.sum_congr rfl fun k _ => ?_
  have hk := contrEquiv1_symm_val dot_S1x256_S256x128_S1x128_1_0_0_1_n_n 256 rfl rfl k
  have el : dot_S1x256_S256x128_S1x128_1_0_0_1_n_n.lhsIdx (ix2 u h) ((contrEquiv1 dot_S1x256_S256x128_S1x128_1_0_0_1_n_n 256 rfl rfl).symm k) = ix2 u k := funext fun a => Fin.ext (by
    match a with
    | ⟨0, _⟩ => exact lhs_0 _ _
    | ⟨1, _⟩ => exact (lhs_1 _ _).trans hk)
  have er : dot_S1x256_S256x128_S1x128_1_0_0_1_n_n.rhsIdx (ix2 u h) ((contrEquiv1 dot_S1x256_S256x128_S1x128_1_0_0_1_n_n 256 rfl rfl).symm k) = ix2 k h := funext fun a => Fin.ext (by
    match a with
    | ⟨0, _⟩ => exact (rhs_0 _ _).trans hk
    | ⟨1, _⟩ => exact rhs_1 _ _)
  rw [el, er]
  rfl

/-- What a grid point adds to the accumulator, entry by entry: for output lane `h`, the sum over the tile's 256 columns
    `j` of (the column sum over the block's 4096 rows of the masked sensitivity) times the message entry (j, h).
    The two roundings to bf16 are the identity on extended reals. -/
theorem pay3_apply (x0 : Vec Ideal S4096x256 .f32) (x1 : Vec Ideal S256x128 .f32) (acc : Vec Ideal S1x128 .f32) (u : Fin 1) (h : Fin 128) :
    k0_pay3 (F := Ideal) x0 x1 acc (ix2 u h) = acc (ix2 u h) + ∑ j : Fin 256, (∑ r : Fin 4096, sens (x0 (ix2 r j))) * x1 (ix2 j h) := by
  unfold k0_pay3
  refine (congrFun (shapeCast_self _ _) _).trans ?_
  refine congrArg (acc (ix2 u h) + ·) ?_
  refine (mm_apply _ _ u h).trans ?_
  refine Finset.sum_congr rfl fun j _ => ?_
  refine congrArg₂ (· * ·) ?_ ?_
  · refine (shapeCast_a_1a_apply _ _ u j).trans ?_
    refine (colsum_apply _ j).trans ?_
    rfl
  · exact congrFun (shapeCast_self _ _) _

/-- The zero block the first column tile starts from. -/
theorem pay2_apply (i : S1x128.Idx) : k0_pay2 (F := Ideal) i = 0 := by
  unfold k0_pay2
  refine (congrFun (shapeCast_self _ _) _).trans ?_
  exact Ideal.ofBits_zero_f32

/-- The output block is the accumulator with a unit axis put in front. -/
theorem pay1_apply (v : Vec Ideal S1x128 .f32) (a : Fin 1) (u : Fin 1) (h : Fin 128) :
    k0_pay1 (F := Ideal) v (ix3 a u h) = v (ix2 u h) := by
  unfold k0_pay1
  exact shapeCast_ab_1ab_apply _ _ a u h

end Cert.Colsum
end
-- ==== Proof.Accum.lean ====
/-
  The accumulator across the grid.  Grid point t = 32·i + k handles row block i (4096 rows of the distance matrix) and
  column tile k (256 columns, and the same 256 rows of the message matrix).  Reading the two windows' blocks as pieces
  of the two matrices, one point adds to the accumulator the tile's term
      term i k h = ∑ j < 256, (∑ r < 4096, sens (D (4096·i + r) (256·k + j))) · M (256·k + j) h,
  starting from zero at k = 0; so after point t the accumulator holds the terms of tiles 0..k of row block i.
-/
import proofs.«163750_j32134945309414_2_alg».proof.Proof.Pieces
import proofs.«163750_j32134945309414_2_alg».proof.Proof.Payload

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.Pieces Cert.Colsum

variable (m : (ℓ : Loc nD τ sig) → Buf (Elt Ideal) ℓ)

/-- A matrix read at natural-number coordinates (zero outside its extents): lets block offsets be plain arithmetic. -/
def ext2 {n0 n1 : ℕ} (f : (⟨2, ![n0, n1]⟩ : Shape).Idx → EReal) (a b : ℕ) : EReal :=
  if h : a < n0 ∧ b < n1 then f (ix2 ⟨a, h.1⟩ ⟨b, h.2⟩) else 0

/-- What row block `i` and column tile `k` contribute to lane `h`: over the tile's 256 columns, the column sum of the
    sensitivities over the block's 4096 rows times the message entry. -/
def tile (Dn Mn : ℕ → ℕ → EReal) (i k h : ℕ) : EReal :=
  ∑ j : Fin 256, (∑ r : Fin 4096, sens (Dn (i * 4096 + r.val) (k * 256 + j.val))) * Mn (k * 256 + j.val) h

/-- One point's stored value over blocks that are pieces of two matrices: the accumulator found plus the tile's term. -/
theorem pay3_tile (x0 : Vec Ideal S4096x256 .f32) (x1 : Vec Ideal S256x128 .f32) (Dn Mn : ℕ → ℕ → EReal) (i k : ℕ)
    (hx0 : ∀ (r : Fin 4096) (j : Fin 256), x0 (ix2 r j) = Dn (i * 4096 + r.val) (k * 256 + j.val))
    (hx1 : ∀ (j : Fin 256) (h : Fin 128), x1 (ix2 j h) = Mn (k * 256 + j.val) h.val)
    (acc : Vec Ideal S1x128 .f32) (u : Fin 1) (h : Fin 128) :
    k0_pay3 (F := Ideal) x0 x1 acc (ix2 u h) = acc (ix2 u h) + tile Dn Mn i k h.val := by
  rw [pay3_apply]
  unfold tile
  refine congrArg (acc (ix2 u h) + ·) (Finset.sum_congr rfl fun j _ => ?_)
  rw [hx1 j h]
  refine congrArg (· * _) (Finset.sum_congr rfl fun r _ => ?_)
  rw [hx0 r j]

/-- Where each window's block sits at grid point `t` = 32·i + k: the distance block at (i, k), the message block at
    (k, 0), the output block at (i, 0, 0). -/
theorem idx_facts : ∀ t : Fin cfg0.N, win0_0.index t (0 : Fin 2) = t.val / 32 ∧ win0_0.index t (1 : Fin 2) = t.val % 32
      ∧ win0_1.index t (0 : Fin 2) = t.val % 32 ∧ win0_1.index t (1 : Fin 2) = 0
      ∧ win0_2.index t (0 : Fin 3) = t.val / 32 ∧ win0_2.index t (1 : Fin 3) = 0 ∧ win0_2.index t (2 : Fin 3) = 0 :=
  (by decide +kernel : ∀ t : Fin grid0.N, _)

/-- The distance block at a point is rows 4096·i.. and columns 256·k.. of the distance matrix. -/
theorem blk0_apply (c : Dev nD) (t : Fin cfg0.N) (r : Fin 4096) (j : Fin 256) :
    (iblk m c 0 t : Vec Ideal S4096x256 .f32) (ix2 r j)
      = ext2 (V m c main_arg1 : S8192x8192.Idx → EReal) (t.val / 32 * 4096 + r.val) (t.val % 32 * 256 + j.val) := by
  have hN : t.val < 64 := lt_of_lt_of_eq t.isLt N_0
  have hi := idx_facts t
  have hb : t.val / 32 * 4096 + r.val < 8192 ∧ t.val % 32 * 256 + j.val < 8192 := by omega
  unfold ext2
  rw [dif_pos hb]
  unfold iblk
  rw [View.read_apply]
  show V m c main_arg1 _ = V m c main_arg1 _
  refine congrArg (V m c main_arg1) ?_
  funext a
  apply Fin.ext
  match a with
  | ⟨0, _⟩ => show win0_0.index t 0 * 4096 + 1 * r.val = t.val / 32 * 4096 + r.val; rw [hi.1]; omega
  | ⟨1, _⟩ => show win0_0.index t 1 * 256 + 1 * j.val = t.val % 32 * 256 + j.val; rw [hi.2.1]; omega

/-- The message block at a point is rows 256·k.. of the message matrix. -/
theorem blk1_apply (c : Dev nD) (t : Fin cfg0.N) (j : Fin 256) (h : Fin 128) :
    (iblk m c 1 t : Vec Ideal S256x128 .f32) (ix2 j h)
      = ext2 (V m c main_v8 : S8192x128.Idx → EReal) (t.val % 32 * 256 + j.val) h.val := by
  have hN : t.val < 64 := lt_of_lt_of_eq t.isLt N_0
  have hi := idx_facts t
  have hb : t.val % 32 * 256 + j.val < 8192 ∧ h.val < 128 := by omega
  unfold ext2
  rw [dif_pos hb]
  unfold iblk
  rw [View.read_apply]
  show V m c main_v8 _ = V m c main_v8 _
  refine congrArg (V m c main_v8) ?_
  funext a
  apply Fin.ext
  match a with
  | ⟨0, _⟩ => show win0_1.index t 0 * 256 + 1 * j.val = t.val % 32 * 256 + j.val; rw [hi.2.2.1]; omega
  | ⟨1, _⟩ => show win0_1.index t 1 * 128 + 1 * h.val = h.val; rw [hi.2.2.2.1]; omega

/-- The tile term of grid point `t`, over the two matrices as the region finds them. -/
abbrev term (c : Dev nD) (i k h : ℕ) : EReal :=
  tile (ext2 (V m c main_arg1 : S8192x8192.Idx → EReal)) (ext2 (V m c main_v8 : S8192x128.Idx → EReal)) i k h

/-- At the first column tile of a row block the accumulator ends at that tile's term alone. -/
theorem step_first (c : Dev nD) (t : Fin cfg0.N) (h0 : t.val % 32 = 0) (h1 : ¬t.val % 32 = 31) (u : Fin 1) (h : Fin 128) :
    (outsAt0 m c t.val t.isLt).2 (ix2 u h) = term m c (t.val / 32) (t.val % 32) h.val := by
  rw [outsAt0_A m c t h0 h1]
  dsimp only
  rw [scr_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)]
  refine (pay3_tile (iblk m c 0 t) (iblk m c 1 t) _ _ (t.val / 32) (t.val % 32) (blk0_apply m c t) (blk1_apply m c t) (k0_pay2 (F := Ideal)) u h).trans ?_
  rw [pay2_apply, zero_add]

/-- At a later column tile it ends at what the point before left plus the tile's term. -/
theorem step_next (c : Dev nD) (t : Fin cfg0.N) (h0 : ¬t.val % 32 = 0) (u : Fin 1) (h : Fin 128) :
    (outsAt0 m c t.val t.isLt).2 (ix2 u h)
      = (outsAt0 m c (t.val - 1) (Nat.lt_of_le_of_lt (Nat.sub_le _ _) t.isLt)).2 (ix2 u h) + term m c (t.val / 32) (t.val % 32) h.val := by
  by_cases h1 : t.val % 32 = 31
  · rw [outsAt0_C m c t h0 h1]
    dsimp only
    rw [scr_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2]
    exact pay3_tile (iblk m c 0 t) (iblk m c 1 t) _ _ (t.val / 32) (t.val % 32) (blk0_apply m c t) (blk1_apply m c t) _ u h
  · rw [outsAt0_B m c t h0 h1]
    dsimp only
    rw [scr_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2]
    exact pay3_tile (iblk m c 0 t) (iblk m c 1 t) _ _ (t.val / 32) (t.val % 32) (blk0_apply m c t) (blk1_apply m c t) _ u h

/-- THE INVARIANT.  After grid point `n` = 32·i + k the accumulator holds, at lane `h`, the terms of column tiles 0..k of
    row block `i` — by induction on the point. -/
theorem acc_eq (c : Dev nD) : ∀ (n : ℕ) (hn : n < cfg0.N) (u : Fin 1) (h : Fin 128),
    (outsAt0 m c n hn).2 (ix2 u h) = ∑ k ∈ Finset.range (n % 32 + 1), term m c (n / 32) k h.val
  | 0, hn, u, h => by
    rw [step_first m c ⟨0, hn⟩ rfl (by dsimp only; omega) u h]
    simp
  | n + 1, hn, u, h => by
    by_cases h0 : (n + 1) % 32 = 0
    · rw [step_first m c ⟨n + 1, hn⟩ h0 (by dsimp only; omega) u h]
      dsimp only
      rw [h0, Finset.sum_range_one]
    · rw [step_next m c ⟨n + 1, hn⟩ h0 u h]
      have ih := acc_eq c n (Nat.lt_of_succ_lt hn) u h
      have e1 : n / 32 = (n + 1) / 32 := by omega
      have e2 : n % 32 + 1 = (n + 1) % 32 := by omega
      rw [e1, e2] at ih
      rw [Finset.sum_range_succ]
      exact congrArg (· + _) ih

end Cert.KernelIdeal.Acc
end
-- ==== Proof.Region.lean ====
/-
  The region's result and the kernel program's two results.  The output window has one block [1,1,128] per row block
  i, written back once, after the last column tile (grid points 31 and 63); by then the accumulator holds all 32 tile
  terms of row block i, so the region's result array [2,1,128] holds at (i, 0, h) the sum over the 32 tiles of
  term i k h, and the two write-backs cover it.  The host lines after the region reshape it to [2,128], add its two
  rows, add the column sums of the on-site features, and from that correction vector form the two results: the last
  argument plus the vector, and 0.01 times its Euclidean norm.
-/
import proofs.«163750_j32134945309414_2_alg».proof.Proof.Accum
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.KernelIdeal.Pieces Cert.KernelIdeal.Acc Cert.Colsum

variable (m : (ℓ : Loc nD τ sig) → Buf (Elt Ideal) ℓ) (ρ : Dev nD → PrngReg)

/-- At the last column tile of a row block the output block is the accumulator, with a unit axis in front. -/
theorem out_last (c : Dev nD) (t : Fin cfg0.N) (h0 : ¬t.val % 32 = 0) (h1 : t.val % 32 = 31) :
    (outsAt0 m c t.val t.isLt).1 = k0_pay1 (F := Ideal) (outsAt0 m c t.val t.isLt).2 := by
  rw [outsAt0_C m c t h0 h1]
  dsimp only
  rw [out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
    scr_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2]

/-- The region's result array [2,1,128]: entry (i, 0, h) is the sum over the 32 column tiles of row block i's terms. -/
def outArr (c : Dev nD) : S2x1x128.Idx → EReal := fun y => ∑ k ∈ Finset.range 32, term m c (y 0).val k (y 2).val

/-- What the write-back after the last column tile of row block i writes is block i of that array. -/
theorem flushed_eq (c : Dev nD) (t : Fin cfg0.N) (hf : (cfg0.win 2).flush t = true) :
    (dats m 0 c).flushed 2 t = ((cfg0.win 2).blk t).view.read (Elt Ideal) (outArr m c) := by
  have h1 : t.val % 32 = 31 := (flush0_2 t).mp hf
  have h0 : ¬t.val % 32 = 0 := by omega
  have hi := idx_facts t
  show (cfg0.win 2).cut (grid0.coords t) ((dats m 0 c).after 2 t) = _
  rw [after0_2, out_last m c t h0 h1]
  funext y
  obtain ⟨a, u, h, rfl⟩ : ∃ (a : Fin 1) (u : Fin 1) (h : Fin 128), (y : S1x1x128.Idx) = ix3 a u h := ⟨y 0, y 1, y 2, eq_ix3 y⟩
  show k0_pay1 (F := Ideal) (outsAt0 m c t.val t.isLt).2 (ix3 a u h) = outArr m c (((cfg0.win 2).blk t).view.emb (ix3 a u h))
  rw [pay1_apply, acc_eq m c t.val t.isLt u h, h1]
  unfold outArr
  have e0 : ((((cfg0.win 2).blk t).view.emb (ix3 a u h)) 0).val = t.val / 32 := by
    show win0_2.index t 0 * 1 + 1 * a.val = t.val / 32
    rw [hi.2.2.2.2.1]; omega
  have e2 : ((((cfg0.win 2).blk t).view.emb (ix3 a u h)) 2).val = h.val := by
    show win0_2.index t 2 * 128 + 1 * h.val = h.val
    rw [hi.2.2.2.2.2.2]; omega
  rw [e0, e2]

theorem mem_blk (t : Fin cfg0.N) (i : S2x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v9).slice (win0_2.rect t)).set ↔ _
  rw [View.set_slice_whole, Rect.mem_set_unit]
  exact Iff.rfl

/-- The two write-backs (after points 31 and 63) cover the array, so it ends holding `outArr`. -/
theorem final_out (c : Dev nD) : (dats m 0 c).arrAt 2 cfg0.N = outArr m c :=
  (dats m 0 c).arrAt_eq_of_cover 2 (outArr m c) (flushed_eq m c) fun i => by
    have hi0 : (i 0).val < 2 := (i 0).isLt
    have hi1 : (i 1).val < 1 := (i 1).isLt
    have hi2 : (i 2).val < 128 := (i 2).isLt
    have hN : cfg0.N = 64 := N_0
    refine ⟨⟨32 * (i 0).val + 31, by omega⟩, (flush0_2 _).mpr (by dsimp only; omega), ?_⟩
    rw [mem_blk]
    have hx := idx_facts ⟨32 * (i 0).val + 31, by omega⟩
    intro a
    match a with
    | ⟨0, _⟩ => show win0_2.index _ 0 * 1 ≤ (i 0).val ∧ (i 0).val < win0_2.index _ 0 * 1 + 1; rw [hx.2.2.2.2.1]; dsimp only; omega
    | ⟨1, _⟩ => show win0_2.index _ 1 * 1 ≤ (i 1).val ∧ (i 1).val < win0_2.index _ 1 * 1 + 1; rw [hx.2.2.2.2.2.1]; omega
    | ⟨2, _⟩ => show win0_2.index _ 2 * 128 ≤ (i 2).val ∧ (i 2).val < win0_2.index _ 2 * 128 + 128; rw [hx.2.2.2.2.2.2]; omega

/-- The correction vector as the kernel's program computes it after the region: the column sums of the on-site
    features plus the sum of the region's two result rows. -/
def corr (c : Dev nD) : FVec Ideal S128 .f32 :=
  addf (Host.reduceAdd (F := Ideal) (V m c main_v4) (constant (F := Ideal) S_ .f32 0x00000000#32) reducesTo_S8192x128_S128_d0 h_S_)
    (Host.reduceAdd (F := Ideal) (shapeCast S2x128 (outArr m c) shapeCasts_S2x1x128_S2x128) (constant (F := Ideal) S_ .f32 0x00000000#32) reducesTo_S2x128_S128_d0 h_S_)

/-- The scaled Euclidean norm both programs apply to the correction vector. -/
def normTail (v : FVec Ideal S128 .f32) : FVec Ideal S_ .f32 :=
  mulf (F := Ideal) (constant (F := Ideal) S_ .f32 0x3C23D70A#32)
    (Host.sqrt (F := Ideal) (Host.reduceAdd (F := Ideal) (mulf (F := Ideal) v v) (constant (F := Ideal) S_ .f32 0x00000000#32) reducesTo_S128_S_d0 h_S_))

/-- The first result: the third bias-like argument plus the correction vector. -/
def res0 (c : Dev nD) : FVec Ideal S128 .f32 :=
  addf (F := Ideal) (φ := .f32) (s := S128) (m ((c : Thread nD τ).loc main_arg6)) (corr m c)

theorem wa_arg6 (c : Dev nD) : Pipeline.withArrays (cfgs 0).spec c (V0 m c) (fun w => (dats m 0 c).arrAt w (cfgs 0).N) (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)
theorem wa_v4 (c : Dev nD) : Pipeline.withArrays (cfgs 0).spec c (V0 m c) (fun w => (dats m 0 c).arrAt w (cfgs 0).N) (Proc.devRef .tc main_v4) = V m c main_v4 :=
  Pipeline.withArrays_of_ne _ c (V0 m c) _ main_v4 (by exact (by decide : ∀ w, Pipeline.arrRef spec0 w ≠ main_v4))
theorem wa_v9 (c : Dev nD) : Pipeline.withArrays (cfgs 0).spec c (V0 m c) (fun w => (dats m 0 c).arrAt w (cfgs 0).N) (Proc.devRef .tc main_v9) = outArr m c :=
  (Pipeline.withArrays_arr spec0 launch0.win.arr_inj c _ _ 2).trans (final_out m c)

/-- The host lines after the region leave the first result at the third argument plus the correction vector, -/
theorem tail_v14 (c : Dev nD) :
    Pipeline.afterTail₀ cfgs (dats m) 0 (V0 m) [hostOps1, hostOps1_1, hostOps1_2] c main_v14
      = res0 m c := by
  unfold Pipeline.afterTail₀
  simp only [hostOps1, hostOps1_1, hostOps1_2, List.flatten_cons, List.flatten_nil, List.append_nil, List.cons_append, List.nil_append]
  after_results
  rw [wa_arg6, wa_v4, wa_v9]
  rfl

/-- and the second at the scaled norm of the correction vector. -/
theorem tail_v16 (c : Dev nD) :
    Pipeline.afterTail₀ cfgs (dats m) 0 (V0 m) [hostOps1, hostOps1_1, hostOps1_2] c main_v16 = normTail (corr m c) := by
  unfold Pipeline.afterTail₀
  simp only [hostOps1, hostOps1_1, hostOps1_2, List.flatten_cons, List.flatten_nil, List.append_nil, List.cons_append, List.nil_append]
  after_results
  rw [wa_v4, wa_v9]
  rfl

/-- The run, read: both results named, the arguments unchanged. -/
theorem run : θ_run defs (onTc (τ := τ) (main (F := Ideal))) ⟨m, fun _ => 0, ρ⟩ fun r => ∀ c : Dev nD,
      r.2.mem ((c.tc : Thread nD τ).loc main_v14) = res0 m c
      ∧ r.2.mem ((c.tc : Thread nD τ).loc main_v16) = normTail (corr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      ((h c).2 main_v14 (Pipeline.mem_restRefs_of main_v14 (by decide) (by decide))).trans (tail_v14 m c),
      ((h c).2 main_v16 (Pipeline.mem_restRefs_of main_v16 (by decide) (by decide))).trans (tail_v16 m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Region
end
-- ==== Proof.Corr.lean ====
/-
  The kernel program's correction vector, lane by lane: the host's two column sums read as `0 + ∑`, the reshape of the
  region's result as dropping its unit axis.
-/
import proofs.«163750_j32134945309414_2_alg».proof.Proof.Region

noncomputable section

open Idealize.ShloMosaic Idealize.ShloMosaic.TcCoe Idealize.SL.Sem Idealize.ShloMosaic.ValueIdx

namespace Cert.KernelIdeal.Region

open Cert.KernelIdeal Cert.KernelIdeal.Gen Cert.KernelIdeal.Acc Cert.Colsum

variable (m : (ℓ : Loc nD τ sig) → Buf (Elt Ideal) ℓ)

/-- The host's column sums of an [8192,128] matrix from the zero word: `0 + ∑ n` at each lane. -/
theorem rowsum8192 (x : FVec Ideal S8192x128 .f32) (h : Fin 128) :
    Host.reduceAdd (F := Ideal) x (constant (F := Ideal) S_ .f32 0x00000000#32) reducesTo_S8192x128_S128_d0 h_S_ (ix1 h)
      = 0 + ∑ n : Fin 8192, x (ix2 n h) := by
  simp only [Host.reduceAdd, Ideal.hostReduceAdd_def]
  rw [Ideal.hostReduceAdd_single reducesTo_S8192x128_S128_d0 (by decide)]
  refine congrArg₂ (· + ·) ?_ (Finset.sum_congr rfl fun k _ => ?_)
  · exact Ideal.ofBits_zero_f32
  · exact congrArg x (funext fun a => Fin.ext (by match a with | ⟨0, _⟩ => rfl | ⟨1, _⟩ => rfl))

/-- The same for a [2,128] matrix. -/
theorem rowsum2 (x : FVec Ideal S2x128 .f32) (h : Fin 128) :
    Host.reduceAdd (F := Ideal) x (constant (F := Ideal) S_ .f32 0x00000000#32) reducesTo_S2x128_S128_d0 h_S_ (ix1 h)
      = 0 + ∑ i : Fin 2, x (ix2 i h) := by
  simp only [Host.reduceAdd, Ideal.hostReduceAdd_def]
  rw [Ideal.hostReduceAdd_single reducesTo_S2x128_S128_d0 (by decide)]
  refine congrArg₂ (· + ·) ?_ (Finset.sum_congr rfl fun k _ => ?_)
  · exact Ideal.ofBits_zero_f32
  · exact congrArg x (funext fun a => Fin.ext (by match a with | ⟨0, _⟩ => rfl | ⟨1, _⟩ => rfl))

/-- The reshape [2,1,128] → [2,128] drops the unit axis. -/
theorem reshape_apply (o : S2x1x128.Idx → EReal) (i : Fin 2) (h : Fin 128) :
    shapeCast S2x128 o shapeCasts_S2x1x128_S2x128 (ix2 i h) = o (ix3 i (0 : Fin 1) h) :=
  shapeCast_apply o _ _ _ (by
    rw [Shape.rowMajor_val_three, Shape.rowMajor_val_two]
    show (i.val * 1 + 0) * 128 + h.val = i.val * 128 + h.val
    omega)

/-- The correction vector's arithmetic over any on-site matrix `z` and any region result `o`. -/
def corrOf (z : FVec Ideal S8192x128 .f32) (o : FVec Ideal S2x1x128 .f32) : FVec Ideal S128 .f32 :=
  addf (Host.reduceAdd (F := Ideal) z (constant (F := Ideal) S_ .f32 0x00000000#32) reducesTo_S8192x128_S128_d0 h_S_)
    (Host.reduceAdd (F := Ideal) (shapeCast S2x128 o shapeCasts_S2x1x128_S2x128) (constant (F := Ideal) S_ .f32 0x00000000#32) reducesTo_S2x128_S128_d0 h_S_)

theorem corrOf_apply (z : FVec Ideal S8192x128 .f32) (o : FVec Ideal S2x1x128 .f32) (h : Fin 128) :
    corrOf z o (ix1 h) = (0 + ∑ n : Fin 8192, z (ix2 n h)) + (0 + ∑ i : Fin 2, o (ix3 i (0 : Fin 1) h)) := by
  unfold corrOf
  refine congrArg₂ (· + ·) (rowsum8192 z h) ?_
  refine (rowsum2 _ h).trans ?_
  refine congrArg (0 + ·) (Finset.sum_congr rfl fun i _ => ?_)
  exact reshape_apply o i h

/-- The on-site feature matrix as the region finds it. -/
def zOn (c : Dev nD) : FVec Ideal S8192x128 .f32 := V m c main_v4

theorem corr_eq (c : Dev nD) : corr m c = corrOf (zOn m c) (outArr m c) := rfl

/-- The kernel program's correction vector at lane `h`: the on-site column sum plus, over the two row blocks and the
    32 column tiles, the tile terms. -/
theorem corr_apply (c : Dev nD) (h : Fin 128) :
    corr m c (ix1 h) = (0 + ∑ n : Fin 8192, zOn m c (ix2 n h))
      + (0 + ∑ i : Fin 2, ∑ k ∈ Finset.range 32, term m c i.val k h.val) := by
  rw [corr_eq]
  exact corrOf_apply (zOn m c) (outArr m c) h

end Cert.KernelIdeal.Region
end
-- ==== Proof.RefSide.lean ====
/-
  The reference, read index by index.  Its masked sensitivity matrix is `sens` of the distance matrix entry by entry
  (the comparison with 0.5, the guarded reciprocal, the square, the exponential of minus twice the square, the mask —
  with the host's negation where the kernel subtracts from zero), and its correction vector is, at lane h,
      0 + ∑ n, ( Z n h + ∑ j, sens (D n j) · M j h )
  for Z the on-site features (the softplus stage) and M the messages (the second linear stage).
-/
import proofs.«163750_j32134945309414_2_alg».proof.Proof.Gen.ReferenceIdeal.Read
import proofs.«163750_j32134945309414_2_alg».proof.Proof.Sens

noncomputable section

open Idealize.ShloMosaic Idealize.ShloMosaic.ValueIdx

namespace Cert.ReferenceIdeal.RefValue

open Cert.ReferenceIdeal Cert.ReferenceIdeal.Read Cert.Colsum

/-- The reference's masked sensitivity matrix, entry by entry. -/
theorem ref_sens (a1 : (⟨S8192x8192, .f32⟩ : BufTy).Contents (Elt Ideal)) (i : S8192x8192.Idx) :
    val_main_v17 (F := Ideal) a1 i = sens (a1 i) := by
  simp only [val_main_v17_apply, val_main_v16_apply, val_main_v15_apply, val_main_v13_apply, val_main_v12_apply,
    val_main_v11_apply, val_main_v9_apply, val_main_v7_apply, val_main_v6_apply, val_main_v5_apply, val_main_cst_apply,
    val_main_call1_v1_apply, val_main_call1_v0_apply, val_main_cst_0_apply, val_main_v8_apply, val_main_cst_1_apply,
    val_main_v10_apply, val_main_cst_2_apply, val_main_v14_apply, val_main_cst_3_apply, val_main_call2_v1_apply,
    val_main_call2_v0_apply, val_main_cst_4_apply]
  unfold sens dev gate
  simp only [Ideal.hostUnary_exp_def, Ideal.hostDivf_def, Ideal.hostNegf_def, Ideal.negf_def, Ideal.mulf_def,
    Ideal.subf_def, Ideal.ofBits_def, Ideal.cmpf_def, zero_word_sub]

/-- The reference's correction vector at lane `h`. -/
theorem ref_corr (a0 : (⟨S8192x64, .f32⟩ : BufTy).Contents (Elt Ideal)) (a1 : (⟨S8192x8192, .f32⟩ : BufTy).Contents (Elt Ideal))
    (a2 : (⟨S64x128, .f32⟩ : BufTy).Contents (Elt Ideal)) (a3 : (⟨S128, .f32⟩ : BufTy).Contents (Elt Ideal))
    (a4 : (⟨S128x128, .f32⟩ : BufTy).Contents (Elt Ideal)) (a5 : (⟨S128, .f32⟩ : BufTy).Contents (Elt Ideal)) (h : Fin 128) :
    val_main_v24 (F := Ideal) a0 a1 a2 a3 a4 a5 (ix1 h)
      = 0 + ∑ n : Fin 8192, (val_main_v4 (F := Ideal) a0 a2 a3 (ix2 n h)
          + ∑ j : Fin 8192, sens (a1 (ix2 n j)) * val_main_v21 (F := Ideal) a0 a2 a3 a4 a5 (ix2 j h)) := by
  rw [val_main_v24_apply, val_main_cst_5_apply]
  simp only [Ideal.ofBits_def, Ideal.ofBits_zero_f32]
  refine congrArg (0 + ·) (Finset.sum_congr rfl fun n _ => ?_)
  have e : idx_main_v24 (ix1 h) n = ix2 n h :=
    funext fun a => Fin.ext (by match a with | ⟨0, _⟩ => rfl | ⟨1, _⟩ => rfl)
  rw [e, val_main_v23_apply, val_main_v22_apply]
  simp only [Ideal.addf_def]
  refine congrArg (_ + ·) (Finset.sum_congr rfl fun j _ => ?_)
  have el : lidx_main_v22 (ix2 n h) j = ix2 n j :=
    funext fun a => Fin.ext (by match a with | ⟨0, _⟩ => rfl | ⟨1, _⟩ => rfl)
  have er : ridx_main_v22 (ix2 n h) j = ix2 j h :=
    funext fun a => Fin.ext (by match a with | ⟨0, _⟩ => rfl | ⟨1, _⟩ => rfl)
  rw [el, er, ref_sens]

end Cert.ReferenceIdeal.RefValue
end
-- ==== Proof.SumLaw.lean ====
/-
  The re-arrangement that joins the two programs, on the extended reals.  With non-negative weights s(n, j),
      ∑ n, (Z n + ∑ j, s n j · M j)  =  ∑ n, Z n  +  ∑ i, ∑ k, ∑ jj, (∑ r, s (i·4096 + r) (k·256 + jj)) · M (k·256 + jj) :
  the left side adds, row by row, the row's own term and its weighted combination of the message rows; the right side
  adds the rows' own terms first and then, per row block i and column tile k, multiplies each COLUMN SUM of the weights
  into the message row.  Addition on the extended reals is commutative and associative, so the sums may be split and
  exchanged freely; pulling the factor M j out of a sum needs distributivity, which holds on the extended reals when
  the summands are non-negative (it fails only when +∞ and -∞ meet) — hence the hypothesis on s.
-/
import Idealize.ShloMosaic.PureOps.Ideal.Laws

open scoped BigOperators

namespace Cert.Colsum

/-- A sum of non-negative extended reals times a factor is the sum of the products. -/
theorem sum_mul_of_nonneg {ι : Type} (t : Finset ι) (f : ι → EReal) (hf : ∀ i ∈ t, 0 ≤ f i) (c : EReal) :
    (∑ i ∈ t, f i) * c = ∑ i ∈ t, f i * c := by
  classical
  induction t using Finset.induction_on with
  | empty => simp
  | insert a t ha ih =>
    rw [Finset.sum_insert ha, Finset.sum_insert ha,
      EReal.right_distrib_of_nonneg (hf a (Finset.mem_insert_self a t))
        (Finset.sum_nonneg fun i hi => hf i (Finset.mem_insert_of_mem hi)),
      ih fun i hi => hf i (Finset.mem_insert_of_mem hi)]

/-- A sum over `a · b` consecutive naturals, cut into `a` blocks of `b`. -/
theorem sum_blocks {A : Type} [AddCommMonoid A] {a b N : ℕ} (hN : a * b = N) (g : ℕ → A) :
    ∑ n : Fin N, g n.val = ∑ i : Fin a, ∑ r : Fin b, g (i.val * b + r.val) := by
  subst hN
  rw [← Equiv.sum_comp finProdFinEquiv (fun n : Fin (a * b) => g n.val), Fintype.sum_prod_type]
  refine Finset.sum_congr rfl fun i _ => Finset.sum_congr rfl fun r _ => ?_
  refine congrArg g ?_
  simp only [finProdFinEquiv_apply_val]
  rw [Nat.mul_comm, Nat.add_comm]

/-- The law. -/
theorem colsum_law (Z : Fin 8192 → EReal) (s : ℕ → ℕ → EReal) (hs : ∀ a b, 0 ≤ s a b) (M : ℕ → EReal) :
    ∑ n : Fin 8192, (Z n + ∑ j : Fin 8192, s n.val j.val * M j.val)
      = ∑ n : Fin 8192, Z n
        + ∑ i : Fin 2, ∑ k : Fin 32, ∑ jj : Fin 256,
            (∑ r : Fin 4096, s (i.val * 4096 + r.val) (k.val * 256 + jj.val)) * M (k.val * 256 + jj.val) := by
  rw [Finset.sum_add_distrib]
  refine congrArg (∑ n : Fin 8192, Z n + ·) ?_
  rw [Finset.sum_comm]
  have h1 : ∀ j : Fin 8192, ∑ n : Fin 8192, s n.val j.val * M j.val = (∑ n : Fin 8192, s n.val j.val) * M j.val :=
    fun j => (sum_mul_of_nonneg _ _ (fun n _ => hs _ _) _).symm
  rw [Finset.sum_congr rfl fun j _ => h1 j]
  rw [sum_blocks (a := 32) (b := 256) rfl (fun j => (∑ n : Fin 8192, s n.val j) * M j)]
  have h2 : ∀ x : ℕ, (∑ n : Fin 8192, s n.val x) * M x
      = ∑ i : Fin 2, (∑ r : Fin 4096, s (i.val * 4096 + r.val) x) * M x := fun x => by
    rw [sum_blocks (a := 2) (b := 4096) rfl (fun n => s n x)]
    exact sum_mul_of_nonneg _ _ (fun i _ => Finset.sum_nonneg fun r _ => hs _ _) _
  rw [Finset.sum_congr rfl fun k _ => Finset.sum_congr rfl fun jj _ => h2 _]
  rw [Finset.sum_congr rfl fun k _ => Finset.sum_comm]
  rw [Finset.sum_comm]

end Cert.Colsum
-- ==== Proof.Bridge.lean ====
/-
  The two programs meet.  Both compute the on-site features Z (a linear map, a bias, softplus) and the messages M (a
  second linear map and bias) by the same host operations; they differ in how the interaction term reaches the
  correction vector.  The reference forms the full masked sensitivity matrix S = sens(D), the product S · M, adds Z and
  sums over rows.  The kernel sums Z over rows on the host and, in the region, only ever forms COLUMN sums of S over a
  row block, multiplied into the matching message rows, accumulated over column tiles and added over the two row
  blocks.  Since every sensitivity is non-negative, the sums re-arrange on the extended reals (`colsum_law`), and the
  two correction vectors are equal; the two results are the same functions of that vector on both sides.
-/
import proofs.«163750_j32134945309414_2_alg».proof.Defs
import proofs.«163750_j32134945309414_2_alg».proof.Proof.Gen.Pre_finite_inputs
import proofs.«163750_j32134945309414_2_alg».proof.Proof.Corr
import proofs.«163750_j32134945309414_2_alg».proof.Proof.RefSide
import proofs.«163750_j32134945309414_2_alg».proof.Proof.SumLaw

noncomputable section

open Idealize.ShloMosaic Idealize.ShloMosaic.TcCoe Idealize.SL.Sem Idealize.ShloMosaic.ValueIdx

namespace Cert.Bridge

open Cert.Colsum Cert.KernelIdeal.Acc Cert.KernelIdeal.Region

variable (m : (ℓ : Loc Cert.KernelIdeal.nD Cert.KernelIdeal.τ Cert.KernelIdeal.sig) → Buf (Elt Ideal) ℓ)

/-- The algebra, over any three matrices: the kernel's arrangement (on-site column sum, then per row block and column
    tile the column sums of the sensitivities times the messages) equals the reference's (row by row, the on-site entry
    plus the sensitivity row times the message column).  The sensitivities are non-negative, which is what the
    distributive steps need on the extended reals. -/
theorem arrangement (Zf : (⟨2, ![8192, 128]⟩ : Shape).Idx → EReal) (Df : (⟨2, ![8192, 8192]⟩ : Shape).Idx → EReal)
    (Mf : (⟨2, ![8192, 128]⟩ : Shape).Idx → EReal) (h : Fin 128) :
    (∑ n : Fin 8192, Zf (ix2 n h)) + ∑ i : Fin 2, ∑ k ∈ Finset.range 32, tile (ext2 Df) (ext2 Mf) i.val k h.val
      = ∑ n : Fin 8192, (Zf (ix2 n h) + ∑ j : Fin 8192, sens (Df (ix2 n j)) * Mf (ix2 j h)) := by
  have hlaw := colsum_law (fun n => Zf (ix2 n h)) (fun a b => sens (ext2 Df a b)) (fun _ _ => sens_nonneg _)
    (fun j => ext2 Mf j h.val)
  have e1 : ∀ (n j : Fin 8192), ext2 Df n.val j.val = Df (ix2 n j) := fun n j => by
    unfold ext2; rw [dif_pos ⟨n.isLt, j.isLt⟩]
  have e2 : ∀ j : Fin 8192, ext2 Mf j.val h.val = Mf (ix2 j h) := fun j => by
    unfold ext2; rw [dif_pos ⟨j.isLt, h.isLt⟩]
  simp only [e1, e2] at hlaw
  rw [hlaw]
  refine congrArg (_ + ·) (Finset.sum_congr rfl fun i _ => ?_)
  rw [Finset.sum_range]
  rfl

set_option maxHeartbeats 2000000 in
/-- The on-site features the region finds are the reference's softplus stage of the same arguments: the two programs
    apply the same host operations. -/
theorem zOn_eq (c : Dev Cert.KernelIdeal.nD) :
    zOn m c = Cert.ReferenceIdeal.Read.val_main_v4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  refine Eq.trans (b := ?mid) ?h1 ?h2
  case h1 =>
    unfold zOn
    dsimp only [Cert.KernelIdeal.Gen.V, Cert.KernelIdeal.Gen.V0]
    simp only [Cert.KernelIdeal.Gen.hostOps0, Cert.KernelIdeal.Gen.hostOps0_1, Cert.KernelIdeal.Gen.hostOps0_2, List.flatten_cons, List.flatten_nil, List.append_nil, List.cons_append, List.nil_append]
    after_results_simp
    exact rfl
  case h2 => exact rfl

set_option maxHeartbeats 2000000 in
/-- The message matrix the region finds is the reference's second linear stage. -/
theorem msg_eq (c : Dev Cert.KernelIdeal.nD) :
    (Cert.KernelIdeal.Gen.V m c Cert.KernelIdeal.main_v8 : Cert.KernelIdeal.S8192x128.Idx → EReal)
      = Cert.ReferenceIdeal.Read.val_main_v21 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  refine Eq.trans (b := ?mid) ?h1 ?h2
  case h1 =>
    dsimp only [Cert.KernelIdeal.Gen.V, Cert.KernelIdeal.Gen.V0]
    simp only [Cert.KernelIdeal.Gen.hostOps0, Cert.KernelIdeal.Gen.hostOps0_1, Cert.KernelIdeal.Gen.hostOps0_2, List.flatten_cons, List.flatten_nil, List.append_nil, List.cons_append, List.nil_append]
    after_results_simp
    exact rfl
  case h2 => exact rfl

/-- THE BRIDGE: the kernel program's correction vector is the reference's. -/
theorem corr_bridge (c : Dev Cert.KernelIdeal.nD) :
    corr m c = Cert.ReferenceIdeal.Read.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  funext i
  obtain ⟨h, rfl⟩ : ∃ h : Fin 128, i = ix1 h := ⟨i 0, eq_ix1 i⟩
  rw [corr_apply, Cert.ReferenceIdeal.RefValue.ref_corr]
  simp only [zero_add]
  rw [← zOn_eq m c, ← msg_eq m c, ← Cert.KernelIdeal.Gen.V_main_arg1 m c]
  exact arrangement (zOn m c) (Cert.KernelIdeal.Gen.V m c Cert.KernelIdeal.main_arg1) (Cert.KernelIdeal.Gen.V m c Cert.KernelIdeal.main_v8) h

/-- The two idealized programs, run from memories that agree on the arguments, end with equal results: both results
    are one function of the correction vector (the last argument plus it; 0.01 times its norm), and the correction
    vectors agree by `corr_bridge`. -/
theorem algebraic : Cert.algebraic_KernelIdeal_ReferenceIdeal := by
  intro m ρ m' ρ' _ hagree
  refine ⟨fun c => res0 m c, fun c => normTail (corr m c), Cert.KernelIdeal.Region.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨g0, g1, g2, g3, g4, g5, g6⟩ := hagree c
    rw [Cert.ReferenceIdeal.Read.val_main_v25_eq, g0, g1, g2, g3, g4, g5, g6]
    unfold Cert.ReferenceIdeal.Read.val_main_v25 res0
    rw [← corr_bridge m c]
  · obtain ⟨g0, g1, g2, g3, g4, g5, g6⟩ := hagree c
    rw [Cert.ReferenceIdeal.Read.val_main_v27_eq, g0, g1, g2, g3, g4, g5]
    unfold Cert.ReferenceIdeal.Read.val_main_v27 Cert.ReferenceIdeal.Read.val_main_v26 Cert.ReferenceIdeal.Read.val_main_call3_v1 Cert.ReferenceIdeal.Read.val_main_call3_v0
      Cert.ReferenceIdeal.Read.val_main_cst_6 Cert.ReferenceIdeal.Read.val_main_call3_cst normTail
    rw [← corr_bridge m c]

end Cert.Bridge
end
-- ==== Proof.lean ====
/-
  The certificate.  The kernel streams the [8192,8192] distance matrix once, in [4096,256] blocks over a 2 × 32 grid;
  at each block it computes the masked sensitivities pointwise, sums them down the block's rows, and multiplies the
  resulting row of 256 column sums into the matching [256,128] block of messages, accumulating over the 32 column
  tiles of a row block; the host adds the two row blocks' results and the column sums of the on-site features.  The
  reference multiplies the whole sensitivity matrix into the messages and sums the rows afterwards.  On the extended
  reals the two agree because sensitivities are non-negative (Proof/SumLaw.lean, Proof/Bridge.lean).  The three frames
  are the generated frame runs (the reference's: its generated run with the results dropped); nothing was rewritten
  by the idealization, so `preserves` is trivial.
-/
import proofs.«163750_j32134945309414_2_alg».proof.Defs
import proofs.«163750_j32134945309414_2_alg».proof.Proof.Gen.Kernel
import proofs.«163750_j32134945309414_2_alg».proof.Proof.Gen.Kernel.Frame
import proofs.«163750_j32134945309414_2_alg».proof.Proof.Gen.KernelIdeal
import proofs.«163750_j32134945309414_2_alg».proof.Proof.Gen.KernelIdeal.Frame
import proofs.«163750_j32134945309414_2_alg».proof.Proof.Gen.ReferenceIdeal
import proofs.«163750_j32134945309414_2_alg».proof.Proof.Gen.ReferenceIdeal.Run
import proofs.«163750_j32134945309414_2_alg».proof.Proof.Gen.Pre_finite_inputs
import proofs.«163750_j32134945309414_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
